-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel

variable [Facts]

def fn {F : FTy → Type} [FloatOps F] (main_arg0 : FVec F S16x2048x256 .f32) (main_arg1 : FVec F S16x2048x256 .f32) (main_arg2 : FVec F S16x2048x256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x256 .f32 := Host.absf main_arg1
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  let main_v9 : FVec F S16x2048x256 .f32 := Host.absf main_arg2
  let main_cst_2 : FVec F S_ .f32 := constant S_ .f32 0x7F800000#32
  let main_v10 : FVec F S16x2048x256 .f32 := broadcastInDim S16x2048x256 ![] bcast_S_S16x2048x256 main_cst_2
  let main_v11 : IVec S16x2048x256 1 := cmpf .olt main_v9 main_v10
  let main_c_3 : IVec S_ 1 := constantI S_ 1 1#1
  let main_v12 : IVec S_ 1 := (fun x v => Host.reduce IntOp.andi x v reducesTo_S16x2048x256_S_d0_1_2 h_S_) main_v11 main_c_3
  let main_v13 : IVec S_ 1 := andi main_v8 main_v12
  main_v13
-- ==== Kernel.lean ====
abbrev S16x2048x256 : Shape := ⟨3, ![16, 2048, 256]⟩
abbrev S16x2048x512 : Shape := ⟨3, ![16, 2048, 512]⟩
abbrev S16x2048x2048 : Shape := ⟨3, ![16, 2048, 2048]⟩
abbrev S1x256x256 : Shape := ⟨3, ![1, 256, 256]⟩
abbrev S1x2048x256 : Shape := ⟨3, ![1, 2048, 256]⟩
abbrev S1x256x512 : Shape := ⟨3, ![1, 256, 512]⟩
abbrev S1x256x2048 : Shape := ⟨3, ![1, 256, 2048]⟩
abbrev S256x256 : Shape := ⟨2, ![256, 256]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x256, .f32⟩
  | .hbm, ⟨3, _⟩ => ⟨S16x2048x512, .f32⟩
  | .hbm, ⟨4, _⟩ => ⟨S16x2048x2048, .f32⟩
  | .local _ .vmem, ⟨0, _⟩ => ⟨S1x256x256, .f32⟩
  | .local _ .vmem, ⟨1, _⟩ => ⟨S1x256x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x512, .f32⟩
  | .local _ .vmem, ⟨7, _⟩ => ⟨S1x256x512, .f32⟩
  | .local _ .vmem, ⟨8, _⟩ => ⟨S1x256x2048, .f32⟩
  | .local _ .vmem, ⟨9, _⟩ => ⟨S1x256x2048, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S1x256x512_S1x256x256_0_0_0 : ∀ a, (![0, 0, 0] : Fin 3 → Nat) a + S1x256x256.size a ≤ S1x256x512.size a
  shapeCasts_S256x256_S1x256x256 : S256x256.ShapeCasts S1x256x256
  inb_S1x256x512_S1x256x256_0_0_256 : ∀ a, (![0, 0, 256] : Fin 3 → Nat) a + S1x256x256.size a ≤ S1x256x512.size a
  dot_S256x256_S2048x256_S256x2048_1_1_0_0_n_n_wf : DotDims.WF S256x256 S2048x256 S256x2048 [1] [1] [0] [0] [] []
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S16x2048x256.size a
  hwx0_0 : ∀ i : grid0.Coords, EltTy.bits .f32 = 32 ∨ (Rect.block (s := S16x2048x256) S1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S16x2048x256.size a
  hwx0_1 : ∀ i : grid0.Coords, EltTy.bits .f32 = 32 ∨ (Rect.block (s := S16x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S16x2048x256.size a
  hwx0_2 : ∀ i : grid0.Coords, EltTy.bits .f32 = 32 ∨ (Rect.block (s := S16x2048x256) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x512.size a ≤ S16x2048x512.size a
  hwx0_3 : ∀ i : grid0.Coords, EltTy.bits .f32 = 32 ∨ (Rect.block (s := S16x2048x512) S1x256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S16x2048x2048.size a
  hwx0_4 : ∀ i : grid0.Coords, EltTy.bits .f32 = 32 ∨ (Rect.block (s := S16x2048x2048) S1x256x2048.size (cc0_transform_4 i) (hinb0_4 i)).WholeWords (EltTy.packing .f32)

variable [Facts₀]

def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg2) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S_ : Shape := ⟨0, ![]⟩
abbrev S16x2048x2048 : Shape := ⟨3, ![16, 2048, 2048]⟩
abbrev S16x2048 : Shape := ⟨2, ![16, 2048]⟩
abbrev S16x2048x1 : Shape := ⟨3, ![16, 2048, 1]⟩
abbrev S16x2048x512 : Shape := ⟨3, ![16, 2048, 512]⟩

abbrev nBuf : Space → Nat
  | .hbm => 26
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048x256, .f32⟩
  | .hbm, ⟨2, _⟩ => ⟨S16x2048x256, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S16x2048x1, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x2048x256, .f32⟩
  | .hbm, ⟨25, _⟩ => ⟨S16x2048x512, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  concatenates_S16x2048x256_S16x2048x256_S16x2048x512_d2 : Shape.Concatenates [S16x2048x256, S16x2048x256] S16x2048x512 2
  dot_S16x2048x256_S16x2048x256_S16x2048x2048_2_2_1_1_0_0_wf : DotDims.WF S16x2048x256 S16x2048x256 S16x2048x2048 [2] [2] [1] [1] [0] [0]
  dot_S16x2048x2048_S16x2048x256_S16x2048x256_2_1_1_2_0_0_wf : DotDims.WF S16x2048x2048 S16x2048x256 S16x2048x256 [2] [1] [1] [2] [0] [0]

variable [Facts₀]

def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf
def dot_S16x2048x2048_S16x2048x256_S16x2048x256_2_1_1_2_0_0 : DotDims S16x2048x2048 S16x2048x256 S16x2048x256 where
  lhsContracting := [2]
  rhsContracting := [1]
  lhsNonContracting := [1]
  rhsNonContracting := [2]
  lhsBatch := [0]
  rhsBatch := [0]
  wf := dot_S16x2048x2048_S16x2048x256_S16x2048x256_2_1_1_2_0_0_wf

class Facts : Prop extends Facts₀ where

variable [Facts]
-- ==== Proof.Spec.lean ====
/-
  Single-pass attention over the extended reals, as one function of the three argument arrays.

  For a batch entry b and a query row q, the score of key k is the inner product of query row q with key row k
  over the 256 features, times the scale 1/16 (the reciprocal of the square root of 256). The row's weights are
  the scores shifted by their maximum, exponentiated, and divided by the sum of those exponentials; the context
  vector is the weighted sum of the value rows. The first result holds, along its last axis, the 256 context
  features followed by the 256 query features; the second result holds the weights.

  Every operation here is the exact one on the extended reals, so the formulas make sense for every input,
  infinite ones included; nothing below needs the inputs to be finite.
-/
import Idealize.ShloMosaic.PureOps.Ideal
import Idealize.ShloMosaic.Lib.ValueIdx

noncomputable section

open scoped BigOperators

namespace Cert.Attn

open Idealize.ShloMosaic Idealize.ShloMosaic.ValueIdx

/-- An argument array: 16 batch entries of 2048 rows of 256 features. -/
abbrev Arr : Type := (⟨3, ![16, 2048, 256]⟩ : Shape).Idx → EReal

/-! ## The constants -/

/-- The word of 256.0 denotes the real 256. -/
theorem ofBits_256 : Ideal.ofBits .f32 0x43800000#32 = ((256 : ℝ) : EReal) := by
  simp [Ideal.ofBits, Ideal.ieee, -EReal.coe_mul]; norm_num

/-- The word of 1.0 denotes 1. -/
theorem ofBits_one : Ideal.ofBits .f32 0x3F800000#32 = ((1 : ℝ) : EReal) := by
  simp [Ideal.ofBits, Ideal.ieee, -EReal.coe_mul]; norm_num

/-- The word of 0.0625 denotes the real 1/16. -/
theorem ofBits_sixteenth : Ideal.ofBits .f32 0x3D800000#32 = ((1 / 16 : ℝ) : EReal) := by
  simp [Ideal.ofBits, Ideal.ieee, -EReal.coe_mul]; norm_num

/-- One divided by the square root of 256 is 1/16, the value of the word 0.0625: the square root of 256 is 16
    exactly, and division by a nonzero real is multiplication by its reciprocal. -/
theorem scale_eq :
    Ideal.div (Ideal.ofBits .f32 0x3F800000#32) (Ideal.sqrt (Ideal.ofBits .f32 0x43800000#32))
      = Ideal.ofBits .f32 0x3D800000#32 := by
  have h16 : Real.sqrt 256 = 16 := by
    rw [show (256 : ℝ) = 16 ^ 2 by norm_num]
    exact Real.sqrt_sq (by norm_num)
  rw [ofBits_256, ofBits_one, ofBits_sixteenth, Ideal.sqrt_coe, if_neg (by norm_num), h16,
    Ideal.div_coe (by norm_num : (16 : ℝ) ≠ 0), ← EReal.coe_mul, one_mul]

/-! ## The formulas -/

/-- The score of key k for query row q of batch entry b. -/
def score (Q K : Arr) (b : Fin 16) (q k : Fin 2048) : EReal :=
  (∑ d : Fin 256, Q (ix3 b q d) * K (ix3 b k d)) * Ideal.ofBits .f32 0x3D800000#32

/-- The largest score of the row, folded from minus infinity (the word 0xFF800000). -/
def rowMax (Q K : Arr) (b : Fin 16) (q : Fin 2048) : EReal :=
  (Finset.univ : Finset (Fin 2048)).fold max (Ideal.ofBits .f32 0xFF800000#32) (fun k => score Q K b q k)

/-- The exponential of a score shifted by the row's maximum. -/
def ex (Q K : Arr) (b : Fin 16) (q k : Fin 2048) : EReal :=
  Ideal.exp (score Q K b q k - rowMax Q K b q)

/-- The row's sum of exponentials. -/
def den (Q K : Arr) (b : Fin 16) (q : Fin 2048) : EReal := ∑ k : Fin 2048, ex Q K b q k

/-- The weight of key k for query row q. -/
def weight (Q K : Arr) (b : Fin 16) (q k : Fin 2048) : EReal := Ideal.div (ex Q K b q k) (den Q K b q)

/-- Feature d of the context vector of query row q: the weighted sum of the value rows. -/
def ctx (Q K V : Arr) (b : Fin 16) (q : Fin 2048) (d : Fin 256) : EReal :=
  ∑ k : Fin 2048, weight Q K b q k * V (ix3 b k d)

/-- The second result: the weights. -/
def weights (Q K : Arr) : (⟨3, ![16, 2048, 2048]⟩ : Shape).Idx → EReal := fun i =>
  weight Q K ⟨(i 0).val, (i 0).isLt⟩ ⟨(i 1).val, (i 1).isLt⟩ ⟨(i 2).val, (i 2).isLt⟩

/-- The first result: the context features, then the query features. -/
def ctxThenQuery (Q K V : Arr) : (⟨3, ![16, 2048, 512]⟩ : Shape).Idx → EReal := fun i =>
  if h : (i 2).val < 256 then ctx Q K V ⟨(i 0).val, (i 0).isLt⟩ ⟨(i 1).val, (i 1).isLt⟩ ⟨(i 2).val, h⟩
  else Q (ix3 (⟨(i 0).val, (i 0).isLt⟩ : Fin 16) (⟨(i 1).val, (i 1).isLt⟩ : Fin 2048)
    (⟨(i 2).val - 256, by have : (i 2).val < 512 := (i 2).isLt; omega⟩ : Fin 256))

theorem weights_ix3 (Q K : Arr) (b : Fin 16) (q k : Fin 2048) : weights Q K (ix3 b q k) = weight Q K b q k := rfl

theorem ctxThenQuery_left (Q K V : Arr) (b : Fin 16) (q : Fin 2048) (j : Fin 512) (h : j.val < 256) :
    ctxThenQuery Q K V (ix3 b q j) = ctx Q K V b q ⟨j.val, h⟩ := by
  unfold ctxThenQuery
  rw [dif_pos (show ((ix3 b q j) 2).val < 256 from h)]

theorem ctxThenQuery_right (Q K V : Arr) (b : Fin 16) (q : Fin 2048) (j : Fin 512) (h : 256 ≤ j.val) :
    ctxThenQuery Q K V (ix3 b q j) = Q (ix3 b q (⟨j.val - 256, by have := j.isLt; omega⟩ : Fin 256)) := by
  unfold ctxThenQuery
  rw [dif_neg (show ¬ ((ix3 b q j) 2).val < 256 from Nat.not_lt.2 h)]

/-- The weights at an index whose coordinates are b, q, k. -/
theorem weights_apply_of (Q K : Arr) (i : (⟨3, ![16, 2048, 2048]⟩ : Shape).Idx) (b : Fin 16) (q k : Fin 2048)
    (h0 : (i 0).val = b.val) (h1 : (i 1).val = q.val) (h2 : (i 2).val = k.val) :
    weights Q K i = weight Q K b q k := by
  have e0 : (⟨(i 0).val, (i 0).isLt⟩ : Fin 16) = b := Fin.ext h0
  have e1 : (⟨(i 1).val, (i 1).isLt⟩ : Fin 2048) = q := Fin.ext h1
  have e2 : (⟨(i 2).val, (i 2).isLt⟩ : Fin 2048) = k := Fin.ext h2
  unfold weights
  rw [e0, e1, e2]

/-- The first result at an index whose coordinates are b, q and a column d below 256: a context feature. -/
theorem ctxThenQuery_left_of (Q K V : Arr) (i : (⟨3, ![16, 2048, 512]⟩ : Shape).Idx) (b : Fin 16) (q : Fin 2048)
    (d : Fin 256) (h0 : (i 0).val = b.val) (h1 : (i 1).val = q.val) (h2 : (i 2).val = d.val) :
    ctxThenQuery Q K V i = ctx Q K V b q d := by
  have hlt : (i 2).val < 256 := by rw [h2]; exact d.isLt
  have e0 : (⟨(i 0).val, (i 0).isLt⟩ : Fin 16) = b := Fin.ext h0
  have e1 : (⟨(i 1).val, (i 1).isLt⟩ : Fin 2048) = q := Fin.ext h1
  have e2 : (⟨(i 2).val, hlt⟩ : Fin 256) = d := Fin.ext h2
  unfold ctxThenQuery
  rw [dif_pos hlt, e0, e1, e2]

/-- The first result at an index whose coordinates are b, q and the column 256 + d: a query feature. -/
theorem ctxThenQuery_right_of (Q K V : Arr) (i : (⟨3, ![16, 2048, 512]⟩ : Shape).Idx) (b : Fin 16) (q : Fin 2048)
    (d : Fin 256) (h0 : (i 0).val = b.val) (h1 : (i 1).val = q.val) (h2 : (i 2).val = 256 + d.val) :
    ctxThenQuery Q K V i = Q (ix3 b q d) := by
  have hge : ¬ (i 2).val < 256 := by omega
  have hlt : (i 2).val - 256 < 256 := by have := d.isLt; omega
  have e0 : (⟨(i 0).val, (i 0).isLt⟩ : Fin 16) = b := Fin.ext h0
  have e1 : (⟨(i 1).val, (i 1).isLt⟩ : Fin 2048) = q := Fin.ext h1
  have e2 : (⟨(i 2).val - 256, hlt⟩ : Fin 256) = d := Fin.ext (by show (i 2).val - 256 = d.val; omega)
  unfold ctxThenQuery
  rw [dif_neg hge, e0, e1, e2]

end Cert.Attn

end
-- ==== Proof.LibRowMax.lean ====
/-
  The maximum along the last axis of an array, read at an index (general: any extents, no program).

  At the exact values the maximum of two numbers is the lattice maximum of the extended reals, which commutes and
  associates; so a maximum taken along one axis does not depend on the order in which the entries are met, and is the
  fold of `max`, from the starting value, over that axis's coordinates. Two spellings of it are read here: the
  maximum of an a × b matrix along its columns (one value per row), and the maximum of an m × a × b array along its
  last axis (one value per leading pair), the second in the form a whole-array reduction from a rank-0 starting
  value takes. A fold of `max` is never below the value it starts from, so taking the maximum with that value once
  more changes nothing.
-/
import Idealize.ShloMosaic.Lib.ValueIdx
import Idealize.ShloMosaic.PureOps.Ideal.Laws

noncomputable section

namespace Cert.RowMax

open Idealize.ShloMosaic Idealize.ShloMosaic.ValueIdx

/-- At the exact values, the maximum of an a × b matrix along its columns is, at row r, the fold of `max` from the
    starting value over the entries of row r. -/
theorem laneMax_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun j => v (ix2 r j)) := by
  refine (Ideal.multiReduction_maximumf_single v acc h hφ hacc (ix1 r)).trans ?_
  refine Finset.fold_congr fun j _ => congrArg v ?_
  funext ax
  match ax with
  | ⟨0, _⟩ => exact Fin.ext rfl
  | ⟨1, _⟩ => exact Fin.ext rfl

/-- At the exact values, the maximum of an m × a × b array along its last axis, started from the one entry of a
    starting array, is at (p, q) the fold of `max` from that entry over the entries (p, q, ·). -/
theorem hostMaxLast_apply {m a b : ℕ} {u : Shape} (x : (⟨3, ![m, a, b]⟩ : Shape).Idx → Ideal .f32)
    (init : u.Idx → Ideal .f32) (h' : (⟨3, ![m, a, b]⟩ : Shape).ReducesTo [2] ⟨2, ![m, a]⟩)
    (h : (⟨3, ![m, a, b]⟩ : Shape).Reduces [2] ⟨2, ![m, a]⟩) (hu : 0 < u.numel) (p : Fin m) (q : Fin a) :
    Host.reduce (FloatOps.maximumf (F := Ideal) (φ := .f32)) x init h' hu (ix2 p q)
      = (Finset.univ : Finset (Fin b)).fold max (init (Shape.Idx.first hu)) (fun j => x (ix3 p q j)) := by
  refine (Host.reduce_eq_fold_single (FloatOps.maximumf (F := Ideal) (φ := .f32)) x init h' h hu (ix2 p q)).trans ?_
  refine Finset.fold_congr fun j _ => congrArg x ?_
  funext ax
  match ax with
  | ⟨0, _⟩ => exact Fin.ext rfl
  | ⟨1, _⟩ => exact Fin.ext rfl
  | ⟨2, _⟩ => exact Fin.ext rfl

/-- A fold of `max` is at least its starting value, so the maximum of the two is the fold. -/
theorem max_init_fold {ι : Type} (s : Finset ι) (init : EReal) (f : ι → EReal) :
    max init (s.fold max init f) = s.fold max init f :=
  max_eq_right ((Finset.le_fold_max init).mpr (Or.inl le_rfl))

end Cert.RowMax

end
-- ==== Proof.RefValue.lean ====
/-
  The reference computes the attention formulas.

  Read one operation at a time at an index, the reference's two results are the functions of Spec.lean: its scale
  is one divided by the square root of 256, which is 1/16; its row maximum is a fold of `max` from minus infinity
  followed by one more maximum with minus infinity, which changes nothing; its sums start from zero; and its
  concatenation takes the context features below column 256 and the query features from column 256 on.
  Argument 0 holds the keys, argument 1 the values, argument 2 the queries.
-/
import proofs.«171798_j21698174779835_2_alg».proof.Proof.Gen.ReferenceIdeal.Read
import proofs.«171798_j21698174779835_2_alg».proof.Proof.Spec
import proofs.«171798_j21698174779835_2_alg».proof.Proof.LibRowMax

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Attn

variable (x0 x1 x2 : (⟨S16x2048x256, .f32⟩ : BufTy).Contents (Elt Ideal))

/-- The scaled inner product of query row q and key row k. -/
theorem score_eq (b : Fin 16) (q k : Fin 2048) :
    val_main_v4 (F := Ideal) x0 x2 (ix3 b q k) = score x2 x0 b q k := by
  rw [val_main_v4_apply, val_main_v2_apply, val_main_v3_apply, val_main_v1_apply, val_main_cst_0_apply,
    val_main_v0_apply, val_main_cst_apply]
  simp only [Ideal.mulf_def, Ideal.hostDivf_def, Ideal.hostUnary_sqrt_def, Ideal.ofBits_def]
  rw [scale_eq]
  unfold score
  refine congrArg (· * _) (Finset.sum_congr rfl fun d _ => ?_)
  have el : lidx_main_v2 (ix3 b q k) d = ix3 b q d :=
    funext fun a => Fin.ext (by match a with | ⟨0, _⟩ => rfl | ⟨1, _⟩ => rfl | ⟨2, _⟩ => rfl)
  have er : ridx_main_v2 (ix3 b q k) d = ix3 b k d :=
    funext fun a => Fin.ext (by match a with | ⟨0, _⟩ => rfl | ⟨1, _⟩ => rfl | ⟨2, _⟩ => rfl)
  rw [el, er]

/-- The row's maximum: the fold from minus infinity, and one more maximum with minus infinity. -/
theorem rowMax_eq (b : Fin 16) (q : Fin 2048) :
    val_main_v7 (F := Ideal) x0 x2 (ix2 b q) = rowMax x2 x0 b q := by
  have h5 : val_main_v5 (F := Ideal) x0 x2 (ix2 b q)
      = (Finset.univ : Finset (Fin 2048)).fold max (Ideal.ofBits .f32 0xFF800000#32) (fun k => score x2 x0 b q k) := by
    unfold val_main_v5
    refine (Cert.RowMax.hostMaxLast_apply (val_main_v4 (F := Ideal) x0 x2) (val_main_cst_1 (F := Ideal))
      reducesTo_S16x2048x2048_S16x2048_d2 (by decide) h_S_ b q).trans ?_
    rw [show val_main_cst_1 (F := Ideal) (Shape.Idx.first h_S_) = Ideal.ofBits .f32 0xFF800000#32 from rfl]
    exact Finset.fold_congr fun k _ => score_eq x0 x2 b q k
  rw [val_main_v7_apply, val_main_v6_apply, val_main_cst_2_apply, h5]
  exact Cert.RowMax.max_init_fold _ _ _

/-- The exponential of the shifted score. -/
theorem ex_eq (b : Fin 16) (q k : Fin 2048) :
    val_main_v11 (F := Ideal) x0 x2 (ix3 b q k) = ex x2 x0 b q k := by
  have e : idx_main_v8 (idx_main_v9 (ix3 b q k)) = ix2 b q :=
    funext fun a => Fin.ext (by match a with | ⟨0, _⟩ => rfl | ⟨1, _⟩ => rfl)
  rw [val_main_v11_apply, val_main_v10_apply, val_main_v9_apply, val_main_v8_apply, e, score_eq, rowMax_eq]
  rfl

/-- The row's sum of exponentials, started from zero. -/
theorem den_eq (b : Fin 16) (q : Fin 2048) :
    val_main_v12 (F := Ideal) x0 x2 (ix2 b q) = den x2 x0 b q := by
  rw [val_main_v12_apply,
    show val_main_cst_3 (F := Ideal) (Shape.Idx.first h_S_) = (0 : EReal) from Ideal.ofBits_zero_f32, zero_add]
  unfold den
  refine Finset.sum_congr rfl fun k _ => ?_
  have e : idx_main_v12 (ix2 b q) k = ix3 b q k :=
    funext fun a => Fin.ext (by match a with | ⟨0, _⟩ => rfl | ⟨1, _⟩ => rfl | ⟨2, _⟩ => rfl)
  rw [e, ex_eq]

/-- The weight of key k for query row q. -/
theorem weight_eq (b : Fin 16) (q k : Fin 2048) :
    val_main_v15 (F := Ideal) x0 x2 (ix3 b q k) = weight x2 x0 b q k := by
  have e : idx_main_v13 (idx_main_v14 (ix3 b q k)) = ix2 b q :=
    funext fun a => Fin.ext (by match a with | ⟨0, _⟩ => rfl | ⟨1, _⟩ => rfl)
  rw [val_main_v15_apply, val_main_v14_apply, val_main_v13_apply, e, ex_eq, den_eq]
  rfl

/-- The reference's second result is the array of weights. -/
theorem weights_eq : val_main_v15 (F := Ideal) x0 x2 = weights x2 x0 := by
  funext i
  obtain ⟨b, q, k, rfl⟩ : ∃ (b : Fin 16) (q : Fin 2048) (k : Fin 2048), i = ix3 b q k := ⟨i 0, i 1, i 2, eq_ix3 i⟩
  exact weight_eq x0 x2 b q k

/-- Feature d of the context vector of query row q. -/
theorem ctx_eq (b : Fin 16) (q : Fin 2048) (d : Fin 256) :
    val_main_v16 (F := Ideal) x0 x1 x2 (ix3 b q d) = ctx x2 x0 x1 b q d := by
  rw [val_main_v16_apply]
  unfold ctx
  refine Finset.sum_congr rfl fun k _ => ?_
  have el : lidx_main_v16 (ix3 b q d) k = ix3 b q k :=
    funext fun a => Fin.ext (by match a with | ⟨0, _⟩ => rfl | ⟨1, _⟩ => rfl | ⟨2, _⟩ => rfl)
  have er : ridx_main_v16 (ix3 b q d) k = ix3 b k d :=
    funext fun a => Fin.ext (by match a with | ⟨0, _⟩ => rfl | ⟨1, _⟩ => rfl | ⟨2, _⟩ => rfl)
  rw [el, er, weight_eq]

/-- The reference's first result: context features below column 256, query features from column 256 on. -/
theorem ctxThenQuery_eq : val_main_v17 (F := Ideal) x0 x1 x2 = ctxThenQuery x2 x0 x1 := by
  funext i
  obtain ⟨b, q, j, rfl⟩ : ∃ (b : Fin 16) (q : Fin 2048) (j : Fin 512), i = ix3 b q j := ⟨i 0, i 1, i 2, eq_ix3 i⟩
  unfold val_main_v17
  by_cases h : j.val < 256
  · rw [ctxThenQuery_left x2 x0 x1 b q j h]
    refine (concatenate_pair_apply_left (2 : Fin 3) (val_main_v16 (F := Ideal) x0 x1 x2) x2
      concatenates_S16x2048x256_S16x2048x256_S16x2048x512_d2 (ix3 b q j) rfl (ix3 b q (⟨j.val, h⟩ : Fin 256))
      (fun a => ?_)).trans (ctx_eq x0 x1 x2 b q ⟨j.val, h⟩)
    match a with
    | ⟨0, _⟩ => rfl
    | ⟨1, _⟩ => rfl
    | ⟨2, _⟩ => rfl
  · have h' : 256 ≤ j.val := Nat.not_lt.1 h
    rw [ctxThenQuery_right x2 x0 x1 b q j h']
    refine concatenate_pair_apply_right (2 : Fin 3) (val_main_v16 (F := Ideal) x0 x1 x2) x2
      concatenates_S16x2048x256_S16x2048x256_S16x2048x512_d2 (ix3 b q j) rfl rfl
      (ix3 b q (⟨j.val - 256, by have := j.isLt; omega⟩ : Fin 256)) (fun a hne => ?_) ?_
    · match a with
      | ⟨0, _⟩ => rfl
      | ⟨1, _⟩ => rfl
      | ⟨2, _⟩ => exact absurd rfl hne
    · show j.val - 256 + 256 = j.val
      omega

end Cert.ReferenceIdeal.RefValue

end
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.KernelBody.lean ====
/-
  What one grid point's body computes, read at an index.

  A point holds 256 query rows of one batch entry and all 2048 key rows and value rows of that entry. Its two
  matrix products, read at an index at the exact values, are plain sums over the contracted coordinate (rounding the
  operands to a narrower format changes nothing there). The scores are the first product times 1/16; each row is shifted
  by its maximum, exponentiated and divided by its sum; the second product of the weights with the value rows gives the
  context features. So whenever the point's blocks are rows of three arrays Q, K, V, what it stores are entries of the
  attention formulas of Spec.lean for those rows.
-/
import proofs.«171798_j21698174779835_2_alg».proof.Proof.Gen.KernelIdeal.Skeleton
import proofs.«171798_j21698174779835_2_alg».proof.Proof.Spec
import proofs.«171798_j21698174779835_2_alg».proof.Proof.LibColumn
import proofs.«171798_j21698174779835_2_alg».proof.Proof.LibRowMax
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen
open Idealize.ShloMosaic Idealize.ShloMosaic.ValueIdx Cert.Attn

/-! ## The two matrix products at an index -/

/-- Queries times keys, contracted over the features: the dimensions of the first product. -/
abbrev Dqk := dot_S256x256_S2048x256_S256x2048_1_1_0_0_n_n
/-- Weights times values, contracted over the keys: the dimensions of the second product. -/
abbrev Dav := dot_S256x2048_S2048x256_S256x256_1_0_0_1_n_n

theorem qk_lhs0 (i : S256x2048.Idx) (c : Dqk.contr.Idx) : (Dqk.lhsIdx i c 0).val = (i 0).val := by
  unfold DotDims.lhsIdx
  rw [dif_neg (show ¬(0 : Fin S256x256.rank) ∈ Dqk.lhsBatch by decide),
    dif_pos (show (0 : Fin S256x256.rank) ∈ Dqk.lhsNonContracting by decide)]
  rfl
theorem qk_lhs1 (i : S256x2048.Idx) (c : Dqk.contr.Idx) : (Dqk.lhsIdx i c 1).val = (c ⟨0, by decide⟩).val :=
  Dqk.lhsIdx_val_of_single rfl i c
theorem qk_rhs0 (i : S256x2048.Idx) (c : Dqk.contr.Idx) : (Dqk.rhsIdx i c 0).val = (i 1).val := by
  unfold DotDims.rhsIdx
  rw [dif_neg (show ¬(0 : Fin S2048x256.rank) ∈ Dqk.rhsBatch by decide),
    dif_pos (show (0 : Fin S2048x256.rank) ∈ Dqk.rhsNonContracting by decide)]
  rfl
theorem qk_rhs1 (i : S256x2048.Idx) (c : Dqk.contr.Idx) : (Dqk.rhsIdx i c 1).val = (c ⟨0, by decide⟩).val :=
  Dqk.rhsIdx_val_of_single rfl i c

/-- Entry (p, k) of the first product into a zero accumulator: the inner product of row p of the left operand with
    row k of the right one. -/
theorem qk_apply (L : FVec Ideal S256x256 .bf16) (R : FVec Ideal S2048x256 .bf16) (p : Fin 256) (k : Fin 2048) :
    matmul Dqk none L R (constant (F := Ideal) S256x2048 .f32 0x00000000#32) (ix2 p k)
      = ∑ d : Fin 256, L (ix2 p d) * R (ix2 k d) := by
  refine (Ideal.matmul_constant_zero_apply Dqk none L R (ix2 p k)).trans ?_
  rw [← Equiv.sum_comp (ValueIdx.contrEquiv1 Dqk 256 rfl rfl).symm]
  refine Finset.sum_congr rfl fun d _ => ?_
  have hk := ValueIdx.contrEquiv1_symm_val Dqk 256 rfl rfl d
  have el : Dqk.lhsIdx (ix2 p k) ((ValueIdx.contrEquiv1 Dqk 256 rfl rfl).symm d) = ix2 p d :=
    funext fun a => Fin.ext (by
      match a with
      | ⟨0, _⟩ => exact qk_lhs0 _ _
      | ⟨1, _⟩ => exact (qk_lhs1 _ _).trans hk)
  have er : Dqk.rhsIdx (ix2 p k) ((ValueIdx.contrEquiv1 Dqk 256 rfl rfl).symm d) = ix2 k d :=
    funext fun a => Fin.ext (by
      match a with
      | ⟨0, _⟩ => exact qk_rhs0 _ _
      | ⟨1, _⟩ => exact (qk_rhs1 _ _).trans hk)
  rw [el, er]

theorem av_lhs0 (i : S256x256.Idx) (c : Dav.contr.Idx) : (Dav.lhsIdx i c 0).val = (i 0).val := by
  unfold DotDims.lhsIdx
  rw [dif_neg (show ¬(0 : Fin S256x2048.rank) ∈ Dav.lhsBatch by decide),
    dif_pos (show (0 : Fin S256x2048.rank) ∈ Dav.lhsNonContracting by decide)]
  rfl
theorem av_lhs1 (i : S256x256.Idx) (c : Dav.contr.Idx) : (Dav.lhsIdx i c 1).val = (c ⟨0, by decide⟩).val :=
  Dav.lhsIdx_val_of_single rfl i c
theorem av_rhs0 (i : S256x256.Idx) (c : Dav.contr.Idx) : (Dav.rhsIdx i c 0).val = (c ⟨0, by decide⟩).val :=
  Dav.rhsIdx_val_of_single rfl i c
theorem av_rhs1 (i : S256x256.Idx) (c : Dav.contr.Idx) : (Dav.rhsIdx i c 1).val = (i 1).val := by
  unfold DotDims.rhsIdx
  rw [dif_neg (show ¬(1 : Fin S2048x256.rank) ∈ Dav.rhsBatch by decide),
    dif_pos (show (1 : Fin S2048x256.rank) ∈ Dav.rhsNonContracting by decide)]
  rfl

/-- Entry (p, d) of the second product into a zero accumulator: the sum over the keys of the left operand's row p
    times the right operand's column d. -/
theorem av_apply (L : FVec Ideal S256x2048 .bf16) (R : FVec Ideal S2048x256 .bf16) (p d : Fin 256) :
    matmul Dav none L R (constant (F := Ideal) S256x256 .f32 0x00000000#32) (ix2 p d)
      = ∑ k : Fin 2048, L (ix2 p k) * R (ix2 k d) := by
  refine (Ideal.matmul_constant_zero_apply Dav none L R (ix2 p d)).trans ?_
  rw [← Equiv.sum_comp (ValueIdx.contrEquiv1 Dav 2048 rfl rfl).symm]
  refine Finset.sum_congr rfl fun k _ => ?_
  have hk := ValueIdx.contrEquiv1_symm_val Dav 2048 rfl rfl k
  have el : Dav.lhsIdx (ix2 p d) ((ValueIdx.contrEquiv1 Dav 2048 rfl rfl).symm k) = ix2 p k :=
    funext fun a => Fin.ext (by
      match a with
      | ⟨0, _⟩ => exact av_lhs0 _ _
      | ⟨1, _⟩ => exact (av_lhs1 _ _).trans hk)
  have er : Dav.rhsIdx (ix2 p d) ((ValueIdx.contrEquiv1 Dav 2048 rfl rfl).symm k) = ix2 k d :=
    funext fun a => Fin.ext (by
      match a with
      | ⟨0, _⟩ => exact (av_rhs0 _ _).trans hk
      | ⟨1, _⟩ => exact av_rhs1 _ _)
  rw [el, er]

/-! ## The scores and the weights of the point's rows -/

/-- The point's scores: the first product of the query block with the key block, times 1/16. -/
def blockScores (x0 : FVec Ideal S1x256x256 .f32) (x1 : FVec Ideal S1x2048x256 .f32) : FVec Ideal S256x2048 .f32 :=
  mulf (matmul Dqk none (truncf .bf16 (shapeCast S256x256 x0 shapeCasts_S1x256x256_S256x256) bitsLt_bf16_f32)
      (truncf .bf16 (shapeCast S2048x256 x1 shapeCasts_S1x2048x256_S2048x256) bitsLt_bf16_f32)
      (constant (F := Ideal) S256x2048 .f32 0x00000000#32))
    (broadcast S256x2048 (Scalar.ofBits (F := Ideal) .f32 0x3D800000#32))

theorem blockScores_apply (x0 : FVec Ideal S1x256x256 .f32) (x1 : FVec Ideal S1x2048x256 .f32) (p : Fin 256) (k : Fin 2048) :
    blockScores x0 x1 (ix2 p k)
      = (∑ d : Fin 256, x0 (ix3 (0 : Fin 1) p d) * x1 (ix3 (0 : Fin 1) k d)) * Ideal.ofBits .f32 0x3D800000#32 := by
  unfold blockScores
  show matmul Dqk none _ _ _ (ix2 p k) * Ideal.ofBits .f32 0x3D800000#32 = _
  rw [qk_apply]
  refine congrArg (· * _) (Finset.sum_congr rfl fun d _ => ?_)
  show shapeCast S256x256 x0 shapeCasts_S1x256x256_S256x256 (ix2 p d)
    * shapeCast S2048x256 x1 shapeCasts_S1x2048x256_S2048x256 (ix2 k d) = _
  rw [shapeCast_1ab_ab_apply, shapeCast_1ab_ab_apply]

/-- A row's entries shifted by the row's maximum and exponentiated. -/
def rowExp (s : FVec Ideal S256x2048 .f32) : FVec Ideal S256x2048 .f32 :=
  exp (subf s (broadcastTo S256x2048 (shapeCast S256x1
    (multiReduction .maximumf [1] S256 s 0xFF800000#32 reduces_S256x2048_S256 (.inl rfl) rfl)
    shapeCasts_S256_S256x1) broadcasts_S256x1_S256x2048))

theorem rowExp_apply (s : FVec Ideal S256x2048 .f32) (p : Fin 256) (k : Fin 2048) :
    rowExp s (ix2 p k) = Ideal.exp (s (ix2 p k)
      - (Finset.univ : Finset (Fin 2048)).fold max (Ideal.ofBits .f32 0xFF800000#32) (fun j => s (ix2 p j))) := by
  unfold rowExp
  show Ideal.exp (s (ix2 p k) - broadcastTo S256x2048 _ broadcasts_S256x1_S256x2048 (ix2 p k)) = _
  refine congrArg (fun M => Ideal.exp (s (ix2 p k) - M)) ?_
  refine (Cert.Column.broadcastTo_a1_ab_apply _ broadcasts_S256x1_S256x2048 p k).trans ?_
  refine (Cert.Column.shapeCast_a_a1_apply _ shapeCasts_S256_S256x1 p 0).trans ?_
  exact Cert.RowMax.laneMax_apply s 0xFF800000#32 reduces_S256x2048_S256 (.inl rfl) rfl p

/-- Each row's exponentials divided by their sum. -/
def rowSoftmax (s : FVec Ideal S256x2048 .f32) : FVec Ideal S256x2048 .f32 :=
  divf (rowExp s) (broadcastTo S256x2048 (shapeCast S256x1
    (multiReduction .add [1] S256 (rowExp s) 0x00000000#32 reduces_S256x2048_S256 (.inl rfl) rfl)
    shapeCasts_S256_S256x1) broadcasts_S256x1_S256x2048)

theorem rowSoftmax_apply (s : FVec Ideal S256x2048 .f32) (p : Fin 256) (k : Fin 2048) :
    rowSoftmax s (ix2 p k) = Ideal.div (rowExp s (ix2 p k)) (∑ j : Fin 2048, rowExp s (ix2 p j)) := by
  unfold rowSoftmax
  show Ideal.div (rowExp s (ix2 p k)) (broadcastTo S256x2048 _ broadcasts_S256x1_S256x2048 (ix2 p k)) = _
  refine congrArg (Ideal.div (rowExp s (ix2 p k))) ?_
  refine (Cert.Column.broadcastTo_a1_ab_apply _ broadcasts_S256x1_S256x2048 p k).trans ?_
  refine (Cert.Column.shapeCast_a_a1_apply _ shapeCasts_S256_S256x1 p 0).trans ?_
  exact Cert.Column.laneSum_apply (rowExp s) 0x00000000#32 reduces_S256x2048_S256 (.inl rfl) rfl p

/-- The value the point stores into the weights' block, as the row operations of the scores. -/
theorem pay2_eq (x0 : FVec Ideal S1x256x256 .f32) (x1 : FVec Ideal S1x2048x256 .f32) :
    k0_pay2 (F := Ideal) x0 x1 = rowSoftmax (blockScores x0 x1) := rfl

section Rows

variable (Q K V : Arr) (b : Fin 16) (q : Fin 256 → Fin 2048)
variable (x0 : FVec Ideal S1x256x256 .f32) (x1 x2 : FVec Ideal S1x2048x256 .f32)
variable (hQ : ∀ (p d : Fin 256), x0 (ix3 (0 : Fin 1) p d) = Q (ix3 b (q p) d))
variable (hK : ∀ (k : Fin 2048) (d : Fin 256), x1 (ix3 (0 : Fin 1) k d) = K (ix3 b k d))
variable (hV : ∀ (k : Fin 2048) (d : Fin 256), x2 (ix3 (0 : Fin 1) k d) = V (ix3 b k d))

include hQ hK in
/-- When the point's query block holds the rows `q p` of Q and its key block the rows of K, both of batch entry b,
    entry (p, k) of what it stores into the weights' block is the weight of key k for query row `q p`. -/
theorem pay2_apply (p : Fin 256) (k : Fin 2048) : k0_pay2 (F := Ideal) x0 x1 (ix2 p k) = weight Q K b (q p) k := by
  have hs : ∀ k' : Fin 2048, blockScores x0 x1 (ix2 p k') = score Q K b (q p) k' := fun k' => by
    rw [blockScores_apply]
    unfold score
    refine congrArg (· * _) (Finset.sum_congr rfl fun d _ => ?_)
    rw [hQ, hK]
  have he : ∀ k' : Fin 2048, rowExp (blockScores x0 x1) (ix2 p k') = ex Q K b (q p) k' := fun k' => by
    rw [rowExp_apply, hs]
    unfold ex rowMax
    exact congrArg (fun M => Ideal.exp (score Q K b (q p) k' - M)) (Finset.fold_congr fun j _ => hs j)
  rw [pay2_eq, rowSoftmax_apply, he]
  unfold weight den
  exact congrArg (Ideal.div (ex Q K b (q p) k)) (Finset.sum_congr rfl fun j _ => he j)

include hQ hK hV in
/-- And entry (p, d) of what it stores into the left half of the first result's block is feature d of the context
    vector of query row `q p`. -/
theorem pay4_apply (u : Fin 1) (p d : Fin 256) : k0_pay4 (F := Ideal) x0 x1 x2 (ix3 u p d) = ctx Q K V b (q p) d := by
  have e : k0_pay4 (F := Ideal) x0 x1 x2 = shapeCast S1x256x256
      (matmul Dav none (truncf .bf16 (k0_pay2 (F := Ideal) x0 x1) bitsLt_bf16_f32)
        (truncf .bf16 (shapeCast S2048x256 x2 shapeCasts_S1x2048x256_S2048x256) bitsLt_bf16_f32)
        (constant (F := Ideal) S256x256 .f32 0x00000000#32)) shapeCasts_S256x256_S1x256x256 := rfl
  rw [e, shapeCast_ab_1ab_apply, av_apply]
  unfold ctx
  refine Finset.sum_congr rfl fun k _ => ?_
  show k0_pay2 (F := Ideal) x0 x1 (ix2 p k) * shapeCast S2048x256 x2 shapeCasts_S1x2048x256_S2048x256 (ix2 k d) = _
  rw [pay2_apply Q K b q x0 x1 hQ hK p k, shapeCast_1ab_ab_apply, hV]

include hQ in
/-- The right half of the first result's block is the query block itself. -/
theorem pay5_apply (u : Fin 1) (p d : Fin 256) : k0_pay5 (F := Ideal) x0 (ix3 u p d) = Q (ix3 b (q p) d) := by
  have e : k0_pay5 (F := Ideal) x0 = shapeCast S1x256x256
      (shapeCast S256x256 x0 shapeCasts_S1x256x256_S256x256) shapeCasts_S256x256_S1x256x256 := rfl
  rw [e, shapeCast_ab_1ab_apply, shapeCast_1ab_ab_apply, hQ]

end Rows

end Cert.KernelIdeal.Body

end
-- ==== Proof.BlockOut.lean ====
/-
  What one grid point leaves in its two output blocks.

  The weights' block is written by one store of the whole block. The first result's block is written by two
  stores side by side: the context features into columns 0 to 255 and the point's own query rows into columns 256
  to 511; together they fill the block, so the block is one function of its index, chosen by the column. When the
  point's input blocks are rows of arrays Q, K, V, both blocks are entries of the attention formulas for those rows.
-/
import proofs.«171798_j21698174779835_2_alg».proof.Proof.Gen.KernelIdeal.Value
import proofs.«171798_j21698174779835_2_alg».proof.Proof.KernelBody
import Idealize.ShloMosaic.Lib.Pipeline.Value

noncomputable section

open scoped BigOperators

namespace Cert.KernelIdeal.BlockOut

open Cert.KernelIdeal Cert.KernelIdeal.Gen Cert.KernelIdeal.Body
open Idealize.ShloMosaic Idealize.ShloMosaic.ValueIdx Cert.Attn

theorem hz3 : (![0, 0, 0] : Fin 3 → Nat) = fun _ => 0 := funext fun a => by fin_cases a <;> rfl

variable (Q K V : Arr) (b : Fin 16) (q : Fin 256 → Fin 2048)

/-- The first result's block of a point whose query rows are `q p`: context features, then query features. -/
def ctxThenQueryBlock : S1x256x512.Idx → EReal := fun y =>
  if h : (y 2).val < 256 then ctx Q K V b (q ⟨(y 1).val, (y 1).isLt⟩) ⟨(y 2).val, h⟩
  else Q (ix3 b (q ⟨(y 1).val, (y 1).isLt⟩)
    (⟨(y 2).val - 256, by have : (y 2).val < 512 := (y 2).isLt; omega⟩ : Fin 256))

theorem ctxThenQueryBlock_left (y : S1x256x512.Idx) (p d : Fin 256) (h1 : (y 1).val = p.val) (h2 : (y 2).val = d.val) :
    ctxThenQueryBlock Q K V b q y = ctx Q K V b (q p) d := by
  have hlt : (y 2).val < 256 := by rw [h2]; exact d.isLt
  have e1 : (⟨(y 1).val, (y 1).isLt⟩ : Fin 256) = p := Fin.ext h1
  have e2 : (⟨(y 2).val, hlt⟩ : Fin 256) = d := Fin.ext h2
  unfold ctxThenQueryBlock
  rw [dif_pos hlt, e1, e2]

theorem ctxThenQueryBlock_right (y : S1x256x512.Idx) (p d : Fin 256) (h1 : (y 1).val = p.val)
    (h2 : (y 2).val = 256 + d.val) : ctxThenQueryBlock Q K V b q y = Q (ix3 b (q p) d) := by
  have hge : ¬ (y 2).val < 256 := by omega
  have hlt : (y 2).val - 256 < 256 := by have := d.isLt; omega
  have e1 : (⟨(y 1).val, (y 1).isLt⟩ : Fin 256) = p := Fin.ext h1
  have e2 : (⟨(y 2).val - 256, hlt⟩ : Fin 256) = d := Fin.ext (by show (y 2).val - 256 = d.val; omega)
  unfold ctxThenQueryBlock
  rw [dif_neg hge, e1, e2]

variable (x0 : FVec Ideal S1x256x256 .f32) (x1 x2 : FVec Ideal S1x2048x256 .f32)
variable (hQ : ∀ (p d : Fin 256), x0 (ix3 (0 : Fin 1) p d) = Q (ix3 b (q p) d))
variable (hK : ∀ (k : Fin 2048) (d : Fin 256), x1 (ix3 (0 : Fin 1) k d) = K (ix3 b k d))
variable (hV : ∀ (k : Fin 2048) (d : Fin 256), x2 (ix3 (0 : Fin 1) k d) = V (ix3 b k d))

include hQ hK in
/-- The weights' block at (u, p, k) is the weight of key k for query row `q p`. -/
theorem weightsBlock_ix3 (u : Fin 1) (p : Fin 256) (k : Fin 2048) :
    out0_4 (F := Ideal) x0 x1 x2 (ix3 u p k) = weight Q K b (q p) k := by
  have l0 : View.ld (Val := Elt Ideal) (e' := .f32) x0 r0_0 = x0 :=
    View.ld_unit_zero (Val := Elt Ideal) (e := .f32) (S := S1x256x256) hz3 inb_S1x256x256_S1x256x256_0_0_0 x0
  have l1 : View.ld (Val := Elt Ideal) (e' := .f32) x1 r0_1 = x1 :=
    View.ld_unit_zero (Val := Elt Ideal) (e := .f32) (S := S1x2048x256) hz3 inb_S1x2048x256_S1x2048x256_0_0_0 x1
  unfold out0_4
  rw [l0, l1]
  refine (Value.canon4_eq (F := Ideal) x0 x1 (ix3 u p k)).trans ?_
  have e : Value.ix4_0 (ix3 u p k) = ix2 p k :=
    funext fun a => Fin.ext (by match a with | ⟨0, _⟩ => rfl | ⟨1, _⟩ => rfl)
  show k0_pay2 (F := Ideal) x0 x1 (Value.ix4_0 (ix3 u p k)) = _
  rw [e]
  exact pay2_apply Q K b q x0 x1 hQ hK p k

include hQ hK in
/-- The same at a block index whose row is p and whose column is k. -/
theorem weightsBlock_apply (y : S1x256x2048.Idx) (p : Fin 256) (k : Fin 2048) (h1 : (y 1).val = p.val)
    (h2 : (y 2).val = k.val) : out0_4 (F := Ideal) x0 x1 x2 y = weight Q K b (q p) k := by
  obtain ⟨u, p', k', rfl⟩ : ∃ (u : Fin 1) (p' : Fin 256) (k' : Fin 2048), y = ix3 u p' k' :=
    ⟨y 0, y 1, y 2, eq_ix3 y⟩
  obtain rfl : p' = p := Fin.ext h1
  obtain rfl : k' = k := Fin.ext h2
  exact weightsBlock_ix3 Q K b q x0 x1 x2 hQ hK u p' k'

include hQ in
/-- The store into columns 256 to 511 writes the point's query rows. -/
theorem queryPiece (x : S1x256x256.Idx) :
    k0_pay5 (F := Ideal) x0 x = ctxThenQueryBlock Q K V b q (r0_4.emb x) := by
  obtain ⟨u, p, d, rfl⟩ : ∃ (u : Fin 1) (p d : Fin 256), x = ix3 u p d := ⟨x 0, x 1, x 2, eq_ix3 x⟩
  refine (pay5_apply Q b q x0 hQ u p d).trans (ctxThenQueryBlock_right Q K V b q _ p d ?_ ?_).symm
  · show 0 + 1 * p.val = p.val
    omega
  · show 256 + 1 * d.val = 256 + d.val
    omega

include hQ hK hV in
/-- The store into columns 0 to 255 writes the context features. -/
theorem ctxPiece (x : S1x256x256.Idx) :
    k0_pay4 (F := Ideal) x0 x1 x2 x = ctxThenQueryBlock Q K V b q (r0_3.emb x) := by
  obtain ⟨u, p, d, rfl⟩ : ∃ (u : Fin 1) (p d : Fin 256), x = ix3 u p d := ⟨x 0, x 1, x 2, eq_ix3 x⟩
  refine (pay4_apply Q K V b q x0 x1 x2 hQ hK hV u p d).trans (ctxThenQueryBlock_left Q K V b q _ p d ?_ ?_).symm
  · show 0 + 1 * p.val = p.val
    omega
  · show 0 + 1 * d.val = d.val
    omega

include hQ hK hV in
/-- The first result's block after the point's two stores. -/
theorem ctxThenQueryBlock_apply (y : S1x256x512.Idx) :
    out0_3 (F := Ideal) x0 x1 x2 y = ctxThenQueryBlock Q K V b q y := by
  have l0 : View.ld (Val := Elt Ideal) (e' := .f32) x0 r0_0 = x0 :=
    View.ld_unit_zero (Val := Elt Ideal) (e := .f32) (S := S1x256x256) hz3 inb_S1x256x256_S1x256x256_0_0_0 x0
  have l1 : View.ld (Val := Elt Ideal) (e' := .f32) x1 r0_1 = x1 :=
    View.ld_unit_zero (Val := Elt Ideal) (e := .f32) (S := S1x2048x256) hz3 inb_S1x2048x256_S1x2048x256_0_0_0 x1
  have l2 : View.ld (Val := Elt Ideal) (e' := .f32) x2 r0_1 = x2 :=
    View.ld_unit_zero (Val := Elt Ideal) (e := .f32) (S := S1x2048x256) hz3 inb_S1x2048x256_S1x2048x256_0_0_0 x2
  unfold out0_3
  rw [l0, l1, l2]
  refine View.canon_apply_of_pieces (Val := Elt Ideal) (e := .f32) (ctxThenQueryBlock Q K V b q) _ ?_ y
    (cover0_3 (F := Ideal) _ _ y)
  intro pc hpc
  rcases List.mem_cons.mp hpc with rfl | hpc
  · exact fun x => queryPiece Q K V b q x0 hQ x
  rcases List.mem_cons.mp hpc with rfl | hpc
  · exact fun x => ctxPiece Q K V b q x0 x1 x2 hQ hK hV x
  nomatch hpc

end Cert.KernelIdeal.BlockOut

end
-- ==== Proof.Blocks.lean ====
/-
  From the grid points' blocks to the two result arrays.

  The grid has 16 × 8 points; point t works on batch entry t / 8 and on the 256 query rows starting at row
  (t mod 8) · 256, with all the key rows and value rows of that batch entry. So its input blocks are rows of the three
  argument arrays, and by BlockOut.lean what it writes back are the entries of the attention formulas at its rows:
  block t of the weights and block t of the first result. Every index of either result lies in the block of the
  point (its batch entry) · 8 + (its row / 256), so after the run the two result arrays are the two formulas.
-/
import proofs.«171798_j21698174779835_2_alg».proof.Proof.Gen.KernelIdeal.Value
import proofs.«171798_j21698174779835_2_alg».proof.Proof.BlockOut
import Idealize.ShloMosaic.Lib.Pipeline.Value

noncomputable section

open scoped BigOperators

namespace Cert.KernelIdeal.Blocks

open Cert.KernelIdeal Cert.KernelIdeal.Gen
open Idealize.ShloMosaic Idealize.ShloMosaic.TcCoe Idealize.ShloMosaic.ValueIdx Idealize.SL.Sem Cert.Attn
open Idealize.ShloMosaic.Pipeline (Dat)

variable (m : (ℓ : Loc nD τ sig) → Buf (Elt Ideal) ℓ) (ρ : Dev nD → PrngReg)

/-- The block index of every window at every grid point, decided over the 128 points: the batch entry is t / 8
    and the block of query rows is t mod 8; the key and value windows hold the whole batch entry. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 3) = t.val / 8 ∧ win0_4.index t (1 : Fin 3) = t.val % 8 ∧ win0_4.index t (2 : Fin 3) = 0) :=
  (by decide +kernel : ∀ t : Fin grid0.N, _)

/-- The batch entry point t works on. -/
def batchOf (t : Fin cfg0.N) : Fin 16 :=
  ⟨t.val / 8, by have h : t.val < grid0.N := t.isLt; rw [N_0] at h; omega⟩

/-- The query row that row p of point t's block is. -/
def rowOf (t : Fin cfg0.N) (p : Fin 256) : Fin 2048 :=
  ⟨t.val % 8 * 256 + p.val, by have := p.isLt; omega⟩

/-- The queries, keys and values as launched (arguments 2, 0 and 1). -/
abbrev Qa (c : Dev nD) : Arr := m ((c : Thread nD τ).loc main_arg2)
abbrev Ka (c : Dev nD) : Arr := m ((c : Thread nD τ).loc main_arg0)
abbrev Va (c : Dev nD) : Arr := m ((c : Thread nD τ).loc main_arg1)

/-! ## The input blocks are rows of the arguments -/

theorem queryBlock_apply (c : Dev nD) (t : Fin cfg0.N) (p d : Fin 256) :
    (iblk m c 0 t : FVec Ideal S1x256x256 .f32) (ix3 (0 : Fin 1) p d) = Qa m c (ix3 (batchOf t) (rowOf t p) d) := by
  obtain ⟨⟨e0, e1, e2⟩, -⟩ := idx_facts t
  unfold iblk
  rw [View.read_apply]
  show V m c main_arg2 _ = m ((c : Thread nD τ).loc main_arg2) _
  unfold V
  congr 1
  funext a
  apply Fin.ext
  match a with
  | ⟨0, _⟩ => show win0_0.index t (0 : Fin 3) * 1 + 1 * 0 = t.val / 8; omega
  | ⟨1, _⟩ => show win0_0.index t (1 : Fin 3) * 256 + 1 * p.val = t.val % 8 * 256 + p.val; omega
  | ⟨2, _⟩ => show win0_0.index t (2 : Fin 3) * 256 + 1 * d.val = d.val; omega

theorem keyBlock_apply (c : Dev nD) (t : Fin cfg0.N) (k : Fin 2048) (d : Fin 256) :
    (iblk m c 1 t : FVec Ideal S1x2048x256 .f32) (ix3 (0 : Fin 1) k d) = Ka m c (ix3 (batchOf t) k d) := by
  obtain ⟨-, ⟨e0, e1, e2⟩, -⟩ := idx_facts t
  unfold iblk
  rw [View.read_apply]
  show V m c main_arg0 _ = m ((c : Thread nD τ).loc main_arg0) _
  unfold V
  congr 1
  funext a
  apply Fin.ext
  match a with
  | ⟨0, _⟩ => show win0_1.index t (0 : Fin 3) * 1 + 1 * 0 = t.val / 8; omega
  | ⟨1, _⟩ => show win0_1.index t (1 : Fin 3) * 2048 + 1 * k.val = k.val; omega
  | ⟨2, _⟩ => show win0_1.index t (2 : Fin 3) * 256 + 1 * d.val = d.val; omega

theorem valueBlock_apply (c : Dev nD) (t : Fin cfg0.N) (k : Fin 2048) (d : Fin 256) :
    (iblk m c 2 t : FVec Ideal S1x2048x256 .f32) (ix3 (0 : Fin 1) k d) = Va m c (ix3 (batchOf t) k d) := by
  obtain ⟨-, -, ⟨e0, e1, e2⟩, -⟩ := idx_facts t
  unfold iblk
  rw [View.read_apply]
  show V m c main_arg1 _ = m ((c : Thread nD τ).loc main_arg1) _
  unfold V
  congr 1
  funext a
  apply Fin.ext
  match a with
  | ⟨0, _⟩ => show win0_2.index t (0 : Fin 3) * 1 + 1 * 0 = t.val / 8; omega
  | ⟨1, _⟩ => show win0_2.index t (1 : Fin 3) * 2048 + 1 * k.val = k.val; omega
  | ⟨2, _⟩ => show win0_2.index t (2 : Fin 3) * 256 + 1 * d.val = d.val; omega

/-! ## The weights -/

/-- What point t writes back to the weights is block t of the weights of the arguments. -/
theorem flushed4_eq (c : Dev nD) (t : Fin cfg0.N) :
    (dats m 0 c).flushed 4 t = ((cfg0.win 4).blk t).view.read (Elt Ideal) (weights (Qa m c) (Ka m c)) := by
  obtain ⟨-, -, -, -, e0, e1, e2⟩ := idx_facts t
  rw [Value.flushed4]
  funext y
  show out0_4 (F := Ideal) (iblk m c 0 t) (iblk m c 1 t) (iblk m c 2 t) y
    = weights (Qa m c) (Ka m c) (((cfg0.win 4).blk t).view.emb y)
  have hy0 : (y 0).val < 1 := (y 0).isLt
  have hy1 : (y 1).val < 256 := (y 1).isLt
  have hy2 : (y 2).val < 2048 := (y 2).isLt
  refine (BlockOut.weightsBlock_apply (Qa m c) (Ka m c) (batchOf t) (rowOf t) (iblk m c 0 t) (iblk m c 1 t)
    (iblk m c 2 t) (queryBlock_apply m c t) (keyBlock_apply m c t) y ⟨(y 1).val, hy1⟩ ⟨(y 2).val, hy2⟩ rfl rfl).trans
    (weights_apply_of (Qa m c) (Ka m c) _ (batchOf t) (rowOf t ⟨(y 1).val, hy1⟩) ⟨(y 2).val, hy2⟩ ?_ ?_ ?_).symm
  · show win0_4.index t (0 : Fin 3) * 1 + 1 * (y 0).val = t.val / 8
    omega
  · show win0_4.index t (1 : Fin 3) * 256 + 1 * (y 1).val = t.val % 8 * 256 + (y 1).val
    omega
  · show win0_4.index t (2 : Fin 3) * 2048 + 1 * (y 2).val = (y 2).val
    omega

theorem mem_blk4 (t : Fin cfg0.N) (i : S16x2048x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v0_1).slice (win0_4.rect t)).set ↔ _
  rw [View.set_slice_whole, Rect.mem_set_unit]
  exact Iff.rfl

/-- Every index of the weights is in the block of the point (batch entry) · 8 + (row / 256). -/
theorem cover4 (i : S16x2048x2048.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 2048 := (i 2).isLt
  obtain ⟨t, ht⟩ : ∃ t : Fin cfg0.N, t.val = (i 0).val * 8 + (i 1).val / 256 :=
    ⟨⟨(i 0).val * 8 + (i 1).val / 256, by show _ < grid0.N; rw [N_0]; omega⟩, rfl⟩
  obtain ⟨-, -, -, -, e0, e1, e2⟩ := idx_facts t
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 256 ≤ (i 1).val ∧ (i 1).val < win0_4.index t (1 : Fin 3) * 256 + 256
    omega
  | ⟨2, _⟩ =>
    show win0_4.index t (2 : Fin 3) * 2048 ≤ (i 2).val ∧ (i 2).val < win0_4.index t (2 : Fin 3) * 2048 + 2048
    omega

/-- After the run the second result holds the weights of the arguments. -/
theorem final4 (c : Dev nD) : (dats m 0 c).arrAt 4 cfg0.N = weights (Qa m c) (Ka m c) :=
  (dats m 0 c).arrAt_eq_of_cover 4 (weights (Qa m c) (Ka m c)) (fun t _ => flushed4_eq m c t) cover4

/-! ## The context features and the query features -/

/-- What point t writes back to the first result is block t of the context-then-query array of the arguments. -/
theorem flushed3_eq (c : Dev nD) (t : Fin cfg0.N) :
    (dats m 0 c).flushed 3 t
      = ((cfg0.win 3).blk t).view.read (Elt Ideal) (ctxThenQuery (Qa m c) (Ka m c) (Va m c)) := by
  obtain ⟨-, -, -, ⟨e0, e1, e2⟩, -⟩ := idx_facts t
  rw [Value.flushed3]
  funext y
  show out0_3 (F := Ideal) (iblk m c 0 t) (iblk m c 1 t) (iblk m c 2 t) y
    = ctxThenQuery (Qa m c) (Ka m c) (Va m c) (((cfg0.win 3).blk t).view.emb y)
  have hy0 : (y 0).val < 1 := (y 0).isLt
  have hy1 : (y 1).val < 256 := (y 1).isLt
  have hy2 : (y 2).val < 512 := (y 2).isLt
  refine (BlockOut.ctxThenQueryBlock_apply (Qa m c) (Ka m c) (Va m c) (batchOf t) (rowOf t) (iblk m c 0 t)
    (iblk m c 1 t) (iblk m c 2 t) (queryBlock_apply m c t) (keyBlock_apply m c t) (valueBlock_apply m c t) y).trans ?_
  by_cases h : (y 2).val < 256
  · refine (BlockOut.ctxThenQueryBlock_left (Qa m c) (Ka m c) (Va m c) (batchOf t) (rowOf t) y
      ⟨(y 1).val, hy1⟩ ⟨(y 2).val, h⟩ rfl rfl).trans
      (ctxThenQuery_left_of (Qa m c) (Ka m c) (Va m c) _ (batchOf t) (rowOf t ⟨(y 1).val, hy1⟩)
        ⟨(y 2).val, h⟩ ?_ ?_ ?_).symm
    · show win0_3.index t (0 : Fin 3) * 1 + 1 * (y 0).val = t.val / 8
      omega
    · show win0_3.index t (1 : Fin 3) * 256 + 1 * (y 1).val = t.val % 8 * 256 + (y 1).val
      omega
    · show win0_3.index t (2 : Fin 3) * 512 + 1 * (y 2).val = (y 2).val
      omega
  · have h' : (y 2).val - 256 < 256 := by omega
    refine (BlockOut.ctxThenQueryBlock_right (Qa m c) (Ka m c) (Va m c) (batchOf t) (rowOf t) y
      ⟨(y 1).val, hy1⟩ ⟨(y 2).val - 256, h'⟩ rfl (by show (y 2).val = 256 + ((y 2).val - 256); omega)).trans
      (ctxThenQuery_right_of (Qa m c) (Ka m c) (Va m c) _ (batchOf t) (rowOf t ⟨(y 1).val, hy1⟩)
        ⟨(y 2).val - 256, h'⟩ ?_ ?_ ?_).symm
    · show win0_3.index t (0 : Fin 3) * 1 + 1 * (y 0).val = t.val / 8
      omega
    · show win0_3.index t (1 : Fin 3) * 256 + 1 * (y 1).val = t.val % 8 * 256 + (y 1).val
      omega
    · show win0_3.index t (2 : Fin 3) * 512 + 1 * (y 2).val = 256 + ((y 2).val - 256)
      omega

theorem mem_blk3 (t : Fin cfg0.N) (i : S16x2048x512.Idx) :
    i ∈ ((cfg0.win 3).blk t).view.set ↔ ∀ a : Fin 3, win0_3.index t a * S1x256x512.size a ≤ (i a).val
      ∧ (i a).val < win0_3.index t a * S1x256x512.size a + S1x256x512.size a := by
  show i ∈ ((View.whole main_v0_0).slice (win0_3.rect t)).set ↔ _
  rw [View.set_slice_whole, Rect.mem_set_unit]
  exact Iff.rfl

/-- Every index of the first result is in the block of the point (batch entry) · 8 + (row / 256). -/
theorem cover3 (i : S16x2048x512.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 512 := (i 2).isLt
  obtain ⟨t, ht⟩ : ∃ t : Fin cfg0.N, t.val = (i 0).val * 8 + (i 1).val / 256 :=
    ⟨⟨(i 0).val * 8 + (i 1).val / 256, by show _ < grid0.N; rw [N_0]; omega⟩, rfl⟩
  obtain ⟨-, -, -, ⟨e0, e1, e2⟩, -⟩ := idx_facts t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 512 ≤ (i 2).val ∧ (i 2).val < win0_3.index t (2 : Fin 3) * 512 + 512
    omega

/-- After the run the first result holds the context features followed by the query features. -/
theorem final3 (c : Dev nD) : (dats m 0 c).arrAt 3 cfg0.N = ctxThenQuery (Qa m c) (Ka m c) (Va m c) :=
  (dats m 0 c).arrAt_eq_of_cover 3 (ctxThenQuery (Qa m c) (Ka m c) (Va m c)) (fun t _ => flushed3_eq m c t) cover3

/-! ## The run -/

/-- Every weakly fair execution of the idealized kernel ends with the two results at the attention formulas of
    the arguments, and the arguments unchanged. -/
theorem run : θ_run defs (onTc (τ := τ) (main (F := Ideal))) ⟨m, fun _ => 0, ρ⟩ fun r => ∀ c : Dev nD,
      r.2.mem ((c : Thread nD τ).loc main_v0_0) = ctxThenQuery (Qa m c) (Ka m c) (Va m c)
      ∧ r.2.mem ((c : Thread nD τ).loc main_v0_1) = weights (Qa m c) (Ka m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.Blocks

end
-- ==== Proof.lean ====
/-
  Single-pass attention: a tiled kernel against the plain jnp reference, equal over the extended reals.

  Both programs compute, for every batch entry and query row, the inner products of the row with all key rows times
  1/16, the exponentials of those scores shifted by their maximum, each divided by the row's sum of exponentials
  (the second result), then the sum of the value rows weighted by them, followed along the last axis by the query
  row itself (the first result). The kernel works on 256 query rows at a time and multiplies by the literal 0.0625;
  the reference works on whole arrays and divides one by the square root of 256, which is 1/16 exactly. Both take
  the row maximum from minus infinity (the reference once more against minus infinity, which changes nothing) and
  the sums from zero. With every operation the exact one, the two programs are one function of the arguments, with
  no use of the inputs being finite: Spec.lean states that function, RefValue.lean reads the reference as it,
  KernelBody.lean, BlockOut.lean and Blocks.lean read the kernel as it, and the claims follow here.
-/
import proofs.«171798_j21698174779835_2_alg».proof.Defs
import proofs.«171798_j21698174779835_2_alg».proof.Proof.Gen.Kernel
import proofs.«171798_j21698174779835_2_alg».proof.Proof.Gen.Kernel.Skeleton
import proofs.«171798_j21698174779835_2_alg».proof.Proof.Gen.Kernel.Launch
import proofs.«171798_j21698174779835_2_alg».proof.Proof.Gen.Kernel.Points
import proofs.«171798_j21698174779835_2_alg».proof.Proof.Gen.Kernel.Frame
import proofs.«171798_j21698174779835_2_alg».proof.Proof.Gen.KernelIdeal
import proofs.«171798_j21698174779835_2_alg».proof.Proof.Gen.KernelIdeal.Skeleton
import proofs.«171798_j21698174779835_2_alg».proof.Proof.Gen.KernelIdeal.Launch
import proofs.«171798_j21698174779835_2_alg».proof.Proof.Gen.KernelIdeal.Points
import proofs.«171798_j21698174779835_2_alg».proof.Proof.Gen.KernelIdeal.Frame
import proofs.«171798_j21698174779835_2_alg».proof.Proof.Gen.ReferenceIdeal
import proofs.«171798_j21698174779835_2_alg».proof.Proof.Gen.Pre_finite_inputs
import proofs.«171798_j21698174779835_2_alg».proof.Proof.Gen.KernelIdeal.Value
import proofs.«171798_j21698174779835_2_alg».proof.Proof.Gen.ReferenceIdeal.Run
import proofs.«171798_j21698174779835_2_alg».proof.Proof.Gen.ReferenceIdeal.Read
import proofs.«171798_j21698174779835_2_alg».proof.Proof.RefValue
import proofs.«171798_j21698174779835_2_alg».proof.Proof.Blocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- The reference is a straight line of host operations: it runs, and never writes an argument. -/
theorem frame_ri : Cert.frame_ReferenceIdeal := fun m ρ _ =>
  (θ_run Cert.ReferenceIdeal.defs _ _).mono (fun _ h c => (h c).2.2)
    (Cert.ReferenceIdeal.Value.run (F := Ideal) m ρ)

/-- The kernel read at the exact values is the kernel's own text: nothing was rewritten. -/
theorem preserves : Cert.preserves_Kernel_KernelIdeal := trivial

/-- From memories that agree on the arguments, the kernel ends with its two results at the attention formulas of the
    arguments (Blocks.lean) and the reference with its two results at the same formulas (RefValue.lean). -/
theorem algebraic : Cert.algebraic_KernelIdeal_ReferenceIdeal := by
  intro m ρ m' ρ' _ hagree
  refine ⟨fun c => Cert.Attn.ctxThenQuery (Cert.KernelIdeal.Blocks.Qa m c) (Cert.KernelIdeal.Blocks.Ka m c)
      (Cert.KernelIdeal.Blocks.Va m c),
    fun c => Cert.Attn.weights (Cert.KernelIdeal.Blocks.Qa m c) (Cert.KernelIdeal.Blocks.Ka m c),
    Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v17_eq _ _ _).trans
      ((Cert.ReferenceIdeal.RefValue.ctxThenQuery_eq _ _ _).trans ?_)
    rw [(hagree c).1, (hagree c).2.1, (hagree c).2.2]
  · refine (Cert.ReferenceIdeal.Read.val_main_v15_eq _ _).trans
      ((Cert.ReferenceIdeal.RefValue.weights_eq _ _).trans ?_)
    rw [(hagree c).1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
